-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S512x256 : Shape := ⟨2, ![512, 256]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2048x512 .f32) (main_arg1 : FVec F S512x256 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S2048x512 : Shape := ⟨2, ![2048, 512]⟩
abbrev S512x256 : Shape := ⟨2, ![512, 256]⟩
abbrev S256x512 : Shape := ⟨2, ![256, 512]⟩
abbrev S2048x256 : Shape := ⟨2, ![2048, 256]⟩
abbrev S128x512 : Shape := ⟨2, ![128, 512]⟩
abbrev S128x256 : Shape := ⟨2, ![128, 256]⟩
abbrev S128x128 : Shape := ⟨2, ![128, 128]⟩
abbrev S128x32 : Shape := ⟨2, ![128, 32]⟩
abbrev S128x1x32 : Shape := ⟨3, ![128, 1, 32]⟩
abbrev S1x128x32 : Shape := ⟨3, ![1, 128, 32]⟩
abbrev S128x128x32 : Shape := ⟨3, ![128, 128, 32]⟩

abbrev nBuf : Space → Nat
  | .hbm => 4
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x256, .f32⟩
  | .hbm, ⟨2, _⟩ => ⟨S256x512, .f32⟩
  | .hbm, ⟨3, _⟩ => ⟨S2048x256, .f32⟩
  | .local _ .vmem, ⟨0, _⟩ => ⟨S128x512, .f32⟩
  | .local _ .vmem, ⟨1, _⟩ => ⟨S128x512, .f32⟩
  | .local _ .vmem, ⟨2, _⟩ => ⟨S256x512, .f32⟩
  | .local _ .vmem, ⟨3, _⟩ => ⟨S128x256, .f32⟩
  | .local _ .vmem, ⟨4, _⟩ => ⟨S128x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x256_S256x512_1_0 : S512x256.Transposes [1, 0] S256x512
  inb_S128x512_S128x512_0_0 : ∀ a, (![0, 0] : Fin 2 → Nat) a + S128x512.size a ≤ S128x512.size a
  h_S128x512 : 0 < S128x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S256x512_o0_0_S128x512 : S256x512.Slices ![0, 0] S128x512
  slices_S256x512_o128_0_S128x512 : S256x512.Slices ![128, 0] S128x512
  slices_S128x512_o0_0_S128x32 : S128x512.Slices ![0, 0] S128x32
  shapeCasts_S128x32_S128x1x32 : S128x32.ShapeCasts S128x1x32
  shapeCasts_S128x32_S1x128x32 : S128x32.ShapeCasts S1x128x32
  broadcasts_S128x1x32_S128x128x32 : S128x1x32.Broadcasts S128x128x32
  broadcasts_S1x128x32_S128x128x32 : S1x128x32.Broadcasts S128x128x32
  reduces_S128x128x32_S128x128 : S128x128x32.Reduces [2] S128x128
  slices_S128x512_o0_32_S128x32 : S128x512.Slices ![0, 32] S128x32
  slices_S128x512_o0_64_S128x32 : S128x512.Slices ![0, 64] S128x32
  slices_S128x512_o0_96_S128x32 : S128x512.Slices ![0, 96] S128x32
  slices_S128x512_o0_128_S128x32 : S128x512.Slices ![0, 128] S128x32
  slices_S128x512_o0_160_S128x32 : S128x512.Slices ![0, 160] S128x32
  slices_S128x512_o0_192_S128x32 : S128x512.Slices ![0, 192] S128x32
  slices_S128x512_o0_224_S128x32 : S128x512.Slices ![0, 224] S128x32
  slices_S128x512_o0_256_S128x32 : S128x512.Slices ![0, 256] S128x32
  slices_S128x512_o0_288_S128x32 : S128x512.Slices ![0, 288] S128x32
  slices_S128x512_o0_320_S128x32 : S128x512.Slices ![0, 320] S128x32
  slices_S128x512_o0_352_S128x32 : S128x512.Slices ![0, 352] S128x32
  slices_S128x512_o0_384_S128x32 : S128x512.Slices ![0, 384] S128x32
  slices_S128x512_o0_416_S128x32 : S128x512.Slices ![0, 416] S128x32
  slices_S128x512_o0_448_S128x32 : S128x512.Slices ![0, 448] S128x32
  slices_S128x512_o0_480_S128x32 : S128x512.Slices ![0, 480] S128x32
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S2048x512.size a
  hwx0_0 : ∀ i : grid0.Coords, EltTy.bits .f32 = 32 ∨ (Rect.block (s := S2048x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S2048x256.size a
  hwx0_2 : ∀ i : grid0.Coords, EltTy.bits .f32 = 32 ∨ (Rect.block (s := S2048x256) S128x256.size (cc0_transform_2 i) (hinb0_2 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x512 : Shape := ⟨2, ![2048, 512]⟩
abbrev S512x256 : Shape := ⟨2, ![512, 256]⟩
abbrev S2048x512x1 : Shape := ⟨3, ![2048, 512, 1]⟩
abbrev S512x128 : Shape := ⟨2, ![512, 128]⟩
abbrev S1x512x128 : Shape := ⟨3, ![1, 512, 128]⟩
abbrev S2048x512x128 : Shape := ⟨3, ![2048, 512, 128]⟩
abbrev S_ : Shape := ⟨0, ![]⟩
abbrev S2048x128 : Shape := ⟨2, ![2048, 128]⟩
abbrev S2048x256 : Shape := ⟨2, ![2048, 256]⟩

abbrev nBuf : Space → Nat
  | .hbm => 19
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x256, .f32⟩
  | .hbm, ⟨2, _⟩ => ⟨S2048x512x1, .f32⟩
  | .hbm, ⟨3, _⟩ => ⟨S512x128, .f32⟩
  | .hbm, ⟨4, _⟩ => ⟨S1x512x128, .f32⟩
  | .hbm, ⟨5, _⟩ => ⟨S2048x512x128, .f32⟩
  | .hbm, ⟨6, _⟩ => ⟨S2048x512x128, .f32⟩
  | .hbm, ⟨7, _⟩ => ⟨S2048x512x128, .f32⟩
  | .hbm, ⟨8, _⟩ => ⟨S2048x512x1, .f32⟩
  | .hbm, ⟨9, _⟩ => ⟨S512x128, .f32⟩
  | .hbm, ⟨10, _⟩ => ⟨S1x512x128, .f32⟩
  | .hbm, ⟨11, _⟩ => ⟨S2048x512x128, .f32⟩
  | .hbm, ⟨12, _⟩ => ⟨S2048x512x128, .f32⟩
  | .hbm, ⟨13, _⟩ => ⟨S2048x512x128, .f32⟩
  | .hbm, ⟨14, _⟩ => ⟨S_, .f32⟩
  | .hbm, ⟨15, _⟩ => ⟨S2048x128, .f32⟩
  | .hbm, ⟨16, _⟩ => ⟨S_, .f32⟩
  | .hbm, ⟨17, _⟩ => ⟨S2048x128, .f32⟩
  | .hbm, ⟨18, _⟩ => ⟨S2048x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S2048x512_S2048x512x1_0_1 : S2048x512.BroadcastsInDim S2048x512x1 (![0, 1] : Fin 2 → Fin S2048x512x1.rank)
  slices_S512x256_S512x128_0_0 : S512x256.Slices ![0, 0] S512x128
  bcast_S512x128_S1x512x128_1_2 : S512x128.BroadcastsInDim S1x512x128 (![1, 2] : Fin 2 → Fin S1x512x128.rank)
  bcast_S2048x512x1_S2048x512x128_0_1_2 : S2048x512x1.BroadcastsInDim S2048x512x128 (![0, 1, 2] : Fin 3 → Fin S2048x512x128.rank)
  bcast_S1x512x128_S2048x512x128_0_1_2 : S1x512x128.BroadcastsInDim S2048x512x128 (![0, 1, 2] : Fin 3 → Fin S2048x512x128.rank)
  slices_S512x256_S512x128_0_128 : S512x256.Slices ![0, 128] S512x128
  reducesTo_S2048x512x128_S2048x128_d1 : S2048x512x128.ReducesTo [1] S2048x128
  h_S_ : 0 < S_.numel
  concatenates_S2048x128_S2048x128_S2048x256_d1 : Shape.Concatenates [S2048x128, S2048x128] S2048x256 1

variable [Facts₀]

class Facts : Prop extends Facts₀ where

variable [Facts]
-- ==== Proof.LibTropicalChunks.lean ====
/-
  Maxima and minima taken chunk by chunk.

  A sequence `G 0, …, G 511` of elements of a linear order is cut into sixteen consecutive chunks of thirty-two. Taking the
  maximum of each chunk (each started from the same element `B`) and then the maximum of `B` and the sixteen chunk maxima, nested
  to the left in the order of the chunks, gives the maximum of `B` and all 512 elements: both are the least element above
  `B` and above every `G n`, because every `n < 512` is `32 c + l` with `c < 16` and `l < 32`. The same holds for minima.
  Nothing but the order is used: no arithmetic on the elements, so the law holds on the extended reals with `B` an infinity.
-/
import Mathlib.Data.Finset.Fold
import Mathlib.Data.Fintype.Basic
import Mathlib.Order.Lattice
import Mathlib.Tactic.IntervalCases

namespace TropicalChunks

variable {α : Type} [LinearOrder α]

/-- The maximum of `B` and the thirty-two elements from position `o` on. -/
def chunkMax (B : α) (G : ℕ → α) (o : ℕ) : α := (Finset.univ : Finset (Fin 32)).fold max B (fun l => G (o + l.val))

/-- The minimum of `B` and the thirty-two elements from position `o` on. -/
def chunkMin (B : α) (G : ℕ → α) (o : ℕ) : α := (Finset.univ : Finset (Fin 32)).fold min B (fun l => G (o + l.val))

theorem chunkMax_le (B : α) (G : ℕ → α) (o : ℕ) (c : α) :
    chunkMax B G o ≤ c ↔ B ≤ c ∧ ∀ l : Fin 32, G (o + l.val) ≤ c := by
  unfold chunkMax
  rw [Finset.fold_max_le]
  exact and_congr_right fun _ => ⟨fun h l => h l (Finset.mem_univ l), fun h l _ => h l⟩

theorem le_chunkMin (B : α) (G : ℕ → α) (o : ℕ) (c : α) :
    c ≤ chunkMin B G o ↔ c ≤ B ∧ ∀ l : Fin 32, c ≤ G (o + l.val) := by
  unfold chunkMin
  rw [Finset.le_fold_min]
  exact and_congr_right fun _ => ⟨fun h l => h l (Finset.mem_univ l), fun h l _ => h l⟩

/-- Every position below 512 lies in one of the sixteen chunks. -/
theorem forall_lt_512 (P : ℕ → Prop)
    (h : ∀ o ∈ [0, 32, 64, 96, 128, 160, 192, 224, 256, 288, 320, 352, 384, 416, 448, 480], ∀ l : Fin 32, P (o + l.val))
    (n : ℕ) (hn : n < 512) : P n := by
  have e : n = 32 * (n / 32) + n % 32 := (Nat.div_add_mod n 32).symm
  have hc : n / 32 < 16 := by omega
  have hl : n % 32 < 32 := Nat.mod_lt _ (by decide)
  rw [e]
  generalize n / 32 = c at hc
  interval_cases c <;> exact h _ (by simp) ⟨n % 32, hl⟩

/-- THE LAW FOR MAXIMA: the sixteen chunk maxima, folded to the left from `B`, are the maximum of `B` and all 512 elements. -/
theorem max_chunks (B : α) (G : ℕ → α) :
    max (max (max (max (max (max (max (max (max (max (max (max (max (max (max (max B
      (chunkMax B G 0)) (chunkMax B G 32)) (chunkMax B G 64)) (chunkMax B G 96)) (chunkMax B G 128)) (chunkMax B G 160))
      (chunkMax B G 192)) (chunkMax B G 224)) (chunkMax B G 256)) (chunkMax B G 288)) (chunkMax B G 320)) (chunkMax B G 352))
      (chunkMax B G 384)) (chunkMax B G 416)) (chunkMax B G 448)) (chunkMax B G 480)
    = (Finset.univ : Finset (Fin 512)).fold max B (fun f => G f.val) := by
  refine eq_of_forall_ge_iff fun c => ?_
  simp only [max_le_iff, chunkMax_le, Finset.fold_max_le, Finset.mem_univ, forall_true_left]
  constructor
  · rintro ⟨⟨⟨⟨⟨⟨⟨⟨⟨⟨⟨⟨⟨⟨⟨⟨hB, -, h0⟩, -, h1⟩, -, h2⟩, -, h3⟩, -, h4⟩, -, h5⟩, -, h6⟩, -, h7⟩, -, h8⟩, -, h9⟩, -, h10⟩, -, h11⟩, -, h12⟩,
      -, h13⟩, -, h14⟩, -, h15⟩
    refine ⟨hB, fun f => forall_lt_512 (fun n => G n ≤ c) ?_ f.val f.isLt⟩
    intro o ho
    simp only [List.mem_cons, List.not_mem_nil, or_false] at ho
    rcases ho with rfl | rfl | rfl | rfl | rfl | rfl | rfl | rfl | rfl | rfl | rfl | rfl | rfl | rfl | rfl | rfl <;> assumption
  · rintro ⟨hB, h⟩
    have k : ∀ o, o + 32 ≤ 512 → ∀ l : Fin 32, G (o + l.val) ≤ c := fun o ho l => h ⟨o + l.val, by have := l.isLt; omega⟩
    exact ⟨⟨⟨⟨⟨⟨⟨⟨⟨⟨⟨⟨⟨⟨⟨⟨hB, hB, k 0 (by omega)⟩, hB, k 32 (by omega)⟩, hB, k 64 (by omega)⟩, hB, k 96 (by omega)⟩, hB, k 128 (by omega)⟩,
      hB, k 160 (by omega)⟩, hB, k 192 (by omega)⟩, hB, k 224 (by omega)⟩, hB, k 256 (by omega)⟩, hB, k 288 (by omega)⟩,
      hB, k 320 (by omega)⟩, hB, k 352 (by omega)⟩, hB, k 384 (by omega)⟩, hB, k 416 (by omega)⟩, hB, k 448 (by omega)⟩, hB, k 480 (by omega)⟩

/-- THE LAW FOR MINIMA: the sixteen chunk minima, folded to the left from `B`, are the minimum of `B` and all 512 elements. -/
theorem min_chunks (B : α) (G : ℕ → α) :
    min (min (min (min (min (min (min (min (min (min (min (min (min (min (min (min B
      (chunkMin B G 0)) (chunkMin B G 32)) (chunkMin B G 64)) (chunkMin B G 96)) (chunkMin B G 128)) (chunkMin B G 160))
      (chunkMin B G 192)) (chunkMin B G 224)) (chunkMin B G 256)) (chunkMin B G 288)) (chunkMin B G 320)) (chunkMin B G 352))
      (chunkMin B G 384)) (chunkMin B G 416)) (chunkMin B G 448)) (chunkMin B G 480)
    = (Finset.univ : Finset (Fin 512)).fold min B (fun f => G f.val) := by
  refine eq_of_forall_le_iff fun c => ?_
  simp only [le_min_iff, le_chunkMin, Finset.le_fold_min, Finset.mem_univ, forall_true_left]
  constructor
  · rintro ⟨⟨⟨⟨⟨⟨⟨⟨⟨⟨⟨⟨⟨⟨⟨⟨hB, -, h0⟩, -, h1⟩, -, h2⟩, -, h3⟩, -, h4⟩, -, h5⟩, -, h6⟩, -, h7⟩, -, h8⟩, -, h9⟩, -, h10⟩, -, h11⟩, -, h12⟩,
      -, h13⟩, -, h14⟩, -, h15⟩
    refine ⟨hB, fun f => forall_lt_512 (fun n => c ≤ G n) ?_ f.val f.isLt⟩
    intro o ho
    simp only [List.mem_cons, List.not_mem_nil, or_false] at ho
    rcases ho with rfl | rfl | rfl | rfl | rfl | rfl | rfl | rfl | rfl | rfl | rfl | rfl | rfl | rfl | rfl | rfl <;> assumption
  · rintro ⟨hB, h⟩
    have k : ∀ o, o + 32 ≤ 512 → ∀ l : Fin 32, c ≤ G (o + l.val) := fun o ho l => h ⟨o + l.val, by have := l.isLt; omega⟩
    exact ⟨⟨⟨⟨⟨⟨⟨⟨⟨⟨⟨⟨⟨⟨⟨⟨hB, hB, k 0 (by omega)⟩, hB, k 32 (by omega)⟩, hB, k 64 (by omega)⟩, hB, k 96 (by omega)⟩, hB, k 128 (by omega)⟩,
      hB, k 160 (by omega)⟩, hB, k 192 (by omega)⟩, hB, k 224 (by omega)⟩, hB, k 256 (by omega)⟩, hB, k 288 (by omega)⟩,
      hB, k 320 (by omega)⟩, hB, k 352 (by omega)⟩, hB, k 384 (by omega)⟩, hB, k 416 (by omega)⟩, hB, k 448 (by omega)⟩, hB, k 480 (by omega)⟩

end TropicalChunks
-- ==== Proof.ChunkRead.lean ====
/-
  One chunk of the kernel's body, read entry by entry.

  The body works on a block `x` of 128 rows of the first argument and on 128 rows `w` of the transposed second argument,
  both 512 long. For the chunk of thirty-two positions from `o` on it lays the x-rows along a new middle axis and the
  w-rows along a new leading axis, adds them into a [128, 128, 32] array whose entry (p, q, l) is
  `x[p, o + l] + w[q, o + l]`, and takes the maximum (for the first 128 output columns) or the minimum (for the last 128)
  over `l`, started from -∞ or +∞. Read at (p, q) this is the chunk maximum (minimum) of the sequence
  `n ↦ x[p, n] + w[q, n]` at offset `o`.
-/
import proofs.«178861_j70145405878420_2_alg».proof.Proof.Gen.KernelIdeal
import proofs.«178861_j70145405878420_2_alg».proof.Proof.LibTropicalChunks
import Idealize.ShloMosaic.Lib.ValueIdx
import Idealize.ShloMosaic.Lib.Pipeline.Value
import Idealize.ShloMosaic.PureOps.Ideal.Laws

noncomputable section

namespace Cert.KernelIdeal.Tropical

open Cert.KernelIdeal Cert.KernelIdeal.Facts₀ Idealize.ShloMosaic Idealize.ShloMosaic.ValueIdx

/-- Row `p` of an array with 512 columns read at a natural position (the value past the row's end is never used). -/
def rowAt {R : ℕ} (v : (⟨2, ![R, 512]⟩ : Shape).Idx → EReal) (p : Fin R) (n : ℕ) : EReal :=
  if h : n < 512 then v (ix2 p ⟨n, h⟩) else 0

theorem rowAt_of_lt {R : ℕ} (v : (⟨2, ![R, 512]⟩ : Shape).Idx → EReal) (p : Fin R) (n : ℕ) (h : n < 512) :
    rowAt v p n = v (ix2 p ⟨n, h⟩) := dif_pos h

/-- The sequence the two reductions run over: `n ↦ x[p, n] + w[q, n]`. -/
def pairAt {R R' : ℕ} (x : (⟨2, ![R, 512]⟩ : Shape).Idx → EReal) (w : (⟨2, ![R', 512]⟩ : Shape).Idx → EReal)
    (p : Fin R) (q : Fin R') (n : ℕ) : EReal := rowAt x p n + rowAt w q n

/-- One chunk's [128, 128, 32] array of sums, as the body computes it from the two blocks. -/
def chunkSums (x w : FVec Ideal S128x512 .f32) (o : ℕ) (hs : S128x512.Slices ![0, o] S128x32) : FVec Ideal S128x128x32 .f32 :=
  addf (broadcastTo S128x128x32 (shapeCast S128x1x32 (extractStridedSlice S128x32 ![0, o] x hs) shapeCasts_S128x32_S128x1x32) broadcasts_S128x1x32_S128x128x32)
    (broadcastTo S128x128x32 (shapeCast S1x128x32 (extractStridedSlice S128x32 ![0, o] w hs) shapeCasts_S128x32_S1x128x32) broadcasts_S1x128x32_S128x128x32)

/-- A chunk of a block read at (p, l): position `o + l` of row `p`. -/
theorem slice_apply (x : FVec Ideal S128x512 .f32) (o : ℕ) (ho : o + 32 ≤ 512) (hs : S128x512.Slices ![0, o] S128x32)
    (p : Fin 128) (l : Fin 32) :
    extractStridedSlice S128x32 ![0, o] x hs (ix2 p l) = rowAt x p (o + l.val) := by
  have hl : o + l.val < 512 := by have := l.isLt; omega
  rw [rowAt_of_lt x p _ hl]
  refine extractStridedSlice_apply ![0, o] x hs (ix2 p l) (ix2 p ⟨o + l.val, hl⟩) fun a => ?_
  match a with
  | ⟨0, _⟩ => show p.val = 0 + p.val; omega
  | ⟨1, _⟩ => rfl

/-- The x-rows laid along a new middle axis and repeated over it: entry (p, q, l) is entry (p, l). -/
theorem spreadMid_apply (v : FVec Ideal S128x32 .f32) (p q : Fin 128) (l : Fin 32) :
    broadcastTo S128x128x32 (shapeCast S128x1x32 v shapeCasts_S128x32_S128x1x32) broadcasts_S128x1x32_S128x128x32 (ix3 p q l)
      = v (ix2 p l) := by
  refine (broadcastTo_apply _ broadcasts_S128x1x32_S128x128x32 (ix3 p q l) (ix3 p (⟨0, Nat.one_pos⟩ : Fin 1) l) fun a => ?_).trans ?_
  · match a with
    | ⟨0, _⟩ => rfl
    | ⟨1, _⟩ => rfl
    | ⟨2, _⟩ => rfl
  · refine shapeCast_apply v shapeCasts_S128x32_S128x1x32 (ix3 p (⟨0, Nat.one_pos⟩ : Fin 1) l) (ix2 p l) ?_
    rw [Shape.rowMajor_val_two, Shape.rowMajor_val_three]
    show p.val * 32 + l.val = (p.val * 1 + 0) * 32 + l.val
    omega

/-- The w-rows laid along a new leading axis and repeated over it: entry (p, q, l) is entry (q, l). -/
theorem spreadLead_apply (v : FVec Ideal S128x32 .f32) (p q : Fin 128) (l : Fin 32) :
    broadcastTo S128x128x32 (shapeCast S1x128x32 v shapeCasts_S128x32_S1x128x32) broadcasts_S1x128x32_S128x128x32 (ix3 p q l)
      = v (ix2 q l) := by
  refine (broadcastTo_apply _ broadcasts_S1x128x32_S128x128x32 (ix3 p q l) (ix3 (⟨0, Nat.one_pos⟩ : Fin 1) q l) fun a => ?_).trans ?_
  · match a with
    | ⟨0, _⟩ => rfl
    | ⟨1, _⟩ => rfl
    | ⟨2, _⟩ => rfl
  · refine shapeCast_apply v shapeCasts_S128x32_S1x128x32 (ix3 (⟨0, Nat.one_pos⟩ : Fin 1) q l) (ix2 q l) ?_
    rw [Shape.rowMajor_val_two, Shape.rowMajor_val_three]
    show q.val * 32 + l.val = (0 * 128 + q.val) * 32 + l.val
    omega

/-- Entry (p, q, l) of a chunk's sums is `x[p, o + l] + w[q, o + l]`. -/
theorem chunkSums_apply (x w : FVec Ideal S128x512 .f32) (o : ℕ) (ho : o + 32 ≤ 512) (hs : S128x512.Slices ![0, o] S128x32)
    (p q : Fin 128) (l : Fin 32) : chunkSums x w o hs (ix3 p q l) = pairAt x w p q (o + l.val) := by
  unfold chunkSums pairAt
  rw [addf_apply, spreadMid_apply, spreadLead_apply, slice_apply x o ho hs, slice_apply w o ho hs]

/-- The index over (p, q) with `l` put back on the reduced axis is (p, q, l). -/
theorem lift_eq (p q : Fin 128) (l : Fin 32) :
    reduces_S128x128x32_S128x128.lift (ix2 p q) l = ix3 p q l := by
  funext a
  apply Fin.ext
  match a with
  | ⟨0, _⟩ => rfl
  | ⟨1, _⟩ => rfl
  | ⟨2, _⟩ => rfl

/-- A chunk's maxima over `l`, started from -∞, as the body computes them. -/
def kChunkMax (x w : FVec Ideal S128x512 .f32) (o : ℕ) (hs : S128x512.Slices ![0, o] S128x32) : FVec Ideal S128x128 .f32 :=
  multiReduction .maximumf [2] S128x128 (chunkSums x w o hs) 0xFF800000#32 reduces_S128x128x32_S128x128 (.inl rfl) rfl

/-- A chunk's minima over `l`, started from +∞, as the body computes them. -/
def kChunkMin (x w : FVec Ideal S128x512 .f32) (o : ℕ) (hs : S128x512.Slices ![0, o] S128x32) : FVec Ideal S128x128 .f32 :=
  multiReduction .minimumf [2] S128x128 (chunkSums x w o hs) 0x7F800000#32 reduces_S128x128x32_S128x128 (.inl rfl) rfl

/-- Read at (p, q) the chunk's maximum is the chunk maximum of `n ↦ x[p, n] + w[q, n]` at offset `o`. -/
theorem kChunkMax_apply (x w : FVec Ideal S128x512 .f32) (o : ℕ) (ho : o + 32 ≤ 512) (hs : S128x512.Slices ![0, o] S128x32)
    (p q : Fin 128) :
    kChunkMax x w o hs (ix2 p q) = TropicalChunks.chunkMax (Ideal.ofBits .f32 0xFF800000#32) (pairAt x w p q) o := by
  unfold kChunkMax TropicalChunks.chunkMax
  have key : ∀ l : Fin 32, chunkSums x w o hs (reduces_S128x128x32_S128x128.lift (ix2 p q) l) = pairAt x w p q (o + l.val) :=
    fun l => by rw [lift_eq, chunkSums_apply x w o ho hs]
  refine (Ideal.multiReduction_maximumf_single (chunkSums x w o hs) _ reduces_S128x128x32_S128x128 _ _ (ix2 p q)).trans ?_
  exact Finset.fold_congr fun l _ => key l

/-- Read at (p, q) the chunk's minimum is the chunk minimum of `n ↦ x[p, n] + w[q, n]` at offset `o`. -/
theorem kChunkMin_apply (x w : FVec Ideal S128x512 .f32) (o : ℕ) (ho : o + 32 ≤ 512) (hs : S128x512.Slices ![0, o] S128x32)
    (p q : Fin 128) :
    kChunkMin x w o hs (ix2 p q) = TropicalChunks.chunkMin (Ideal.ofBits .f32 0x7F800000#32) (pairAt x w p q) o := by
  unfold kChunkMin TropicalChunks.chunkMin
  have key : ∀ l : Fin 32, chunkSums x w o hs (reduces_S128x128x32_S128x128.lift (ix2 p q) l) = pairAt x w p q (o + l.val) :=
    fun l => by rw [lift_eq, chunkSums_apply x w o ho hs]
  refine (multiReduction_minimumf_eq_fold (chunkSums x w o hs) _ reduces_S128x128x32_S128x128 _ _ (ix2 p q)).trans ?_
  refine (reduces_S128x128x32_S128x128.fold_filter_drop_single _ _ (chunkSums x w o hs) (ix2 p q)).trans ?_
  exact Finset.fold_congr fun l _ => key l

end Cert.KernelIdeal.Tropical

end
-- ==== Proof.KernelBlock.lean ====
/-
  What the body leaves in the output block, entry by entry.

  For a block x of 128 rows of the first argument and the 256 × 512 transposed second argument wt, the body keeps two
  running arrays, started at -∞ and +∞, and for each of the sixteen chunks of thirty-two positions replaces them by their
  entrywise maximum (minimum) with that chunk's maxima (minima) against rows 0 … 127 (rows 128 … 255) of wt. The first is
  stored in columns 0 … 127 of the output block, the second in columns 128 … 255. By the law for maxima and minima taken
  chunk by chunk, entry (p, q) of the running maxima (minima) is the maximum (minimum) over all 512 positions n of
  x[p, n] + w[q, n], started from -∞ (from +∞), w the rows of wt the half reads.
-/
import proofs.«178861_j70145405878420_2_alg».proof.Proof.Gen.KernelIdeal.Skeleton
import proofs.«178861_j70145405878420_2_alg».proof.Proof.ChunkRead

noncomputable section

namespace Cert.KernelIdeal.Tropical

open Cert.KernelIdeal Idealize.ShloMosaic Idealize.ShloMosaic.ValueIdx

/-- The running maxima after the sixteen chunks. -/
def accMax (x w : FVec Ideal S128x512 .f32) : FVec Ideal S128x128 .f32 :=
  maximumf (maximumf (maximumf (maximumf (maximumf (maximumf (maximumf (maximumf (maximumf (maximumf (maximumf (maximumf
    (maximumf (maximumf (maximumf (maximumf (broadcast S128x128 (Scalar.ofBits .f32 0xFF800000#32))
    (kChunkMax x w 0 Facts₀.slices_S128x512_o0_0_S128x32))
    (kChunkMax x w 32 Facts₀.slices_S128x512_o0_32_S128x32))
    (kChunkMax x w 64 Facts₀.slices_S128x512_o0_64_S128x32))
    (kChunkMax x w 96 Facts₀.slices_S128x512_o0_96_S128x32))
    (kChunkMax x w 128 Facts₀.slices_S128x512_o0_128_S128x32))
    (kChunkMax x w 160 Facts₀.slices_S128x512_o0_160_S128x32))
    (kChunkMax x w 192 Facts₀.slices_S128x512_o0_192_S128x32))
    (kChunkMax x w 224 Facts₀.slices_S128x512_o0_224_S128x32))
    (kChunkMax x w 256 Facts₀.slices_S128x512_o0_256_S128x32))
    (kChunkMax x w 288 Facts₀.slices_S128x512_o0_288_S128x32))
    (kChunkMax x w 320 Facts₀.slices_S128x512_o0_320_S128x32))
    (kChunkMax x w 352 Facts₀.slices_S128x512_o0_352_S128x32))
    (kChunkMax x w 384 Facts₀.slices_S128x512_o0_384_S128x32))
    (kChunkMax x w 416 Facts₀.slices_S128x512_o0_416_S128x32))
    (kChunkMax x w 448 Facts₀.slices_S128x512_o0_448_S128x32))
    (kChunkMax x w 480 Facts₀.slices_S128x512_o0_480_S128x32)

/-- The running minima after the sixteen chunks. -/
def accMin (x w : FVec Ideal S128x512 .f32) : FVec Ideal S128x128 .f32 :=
  minimumf (minimumf (minimumf (minimumf (minimumf (minimumf (minimumf (minimumf (minimumf (minimumf (minimumf (minimumf
    (minimumf (minimumf (minimumf (minimumf (broadcast S128x128 (Scalar.ofBits .f32 0x7F800000#32))
    (kChunkMin x w 0 Facts₀.slices_S128x512_o0_0_S128x32))
    (kChunkMin x w 32 Facts₀.slices_S128x512_o0_32_S128x32))
    (kChunkMin x w 64 Facts₀.slices_S128x512_o0_64_S128x32))
    (kChunkMin x w 96 Facts₀.slices_S128x512_o0_96_S128x32))
    (kChunkMin x w 128 Facts₀.slices_S128x512_o0_128_S128x32))
    (kChunkMin x w 160 Facts₀.slices_S128x512_o0_160_S128x32))
    (kChunkMin x w 192 Facts₀.slices_S128x512_o0_192_S128x32))
    (kChunkMin x w 224 Facts₀.slices_S128x512_o0_224_S128x32))
    (kChunkMin x w 256 Facts₀.slices_S128x512_o0_256_S128x32))
    (kChunkMin x w 288 Facts₀.slices_S128x512_o0_288_S128x32))
    (kChunkMin x w 320 Facts₀.slices_S128x512_o0_320_S128x32))
    (kChunkMin x w 352 Facts₀.slices_S128x512_o0_352_S128x32))
    (kChunkMin x w 384 Facts₀.slices_S128x512_o0_384_S128x32))
    (kChunkMin x w 416 Facts₀.slices_S128x512_o0_416_S128x32))
    (kChunkMin x w 448 Facts₀.slices_S128x512_o0_448_S128x32))
    (kChunkMin x w 480 Facts₀.slices_S128x512_o0_480_S128x32)

/-- Entry (p, q) of the running maxima: the maximum over all 512 positions, started from -∞. -/
theorem accMax_apply (x w : FVec Ideal S128x512 .f32) (p q : Fin 128) :
    accMax x w (ix2 p q)
      = (Finset.univ : Finset (Fin 512)).fold max (Ideal.ofBits .f32 0xFF800000#32) (fun f => pairAt x w p q f.val) := by
  have e : ∀ o (ho : o + 32 ≤ 512) hs, kChunkMax x w o hs (ix2 p q)
      = TropicalChunks.chunkMax (Ideal.ofBits .f32 0xFF800000#32) (pairAt x w p q) o := fun o ho hs => kChunkMax_apply x w o ho hs p q
  unfold accMax
  simp only [maximumf_apply, broadcast_apply]
  rw [e 0 (by omega), e 32 (by omega), e 64 (by omega), e 96 (by omega), e 128 (by omega), e 160 (by omega), e 192 (by omega),
    e 224 (by omega), e 256 (by omega), e 288 (by omega), e 320 (by omega), e 352 (by omega), e 384 (by omega), e 416 (by omega),
    e 448 (by omega), e 480 (by omega)]
  exact TropicalChunks.max_chunks _ _

/-- Entry (p, q) of the running minima: the minimum over all 512 positions, started from +∞. -/
theorem accMin_apply (x w : FVec Ideal S128x512 .f32) (p q : Fin 128) :
    accMin x w (ix2 p q)
      = (Finset.univ : Finset (Fin 512)).fold min (Ideal.ofBits .f32 0x7F800000#32) (fun f => pairAt x w p q f.val) := by
  have e : ∀ o (ho : o + 32 ≤ 512) hs, kChunkMin x w o hs (ix2 p q)
      = TropicalChunks.chunkMin (Ideal.ofBits .f32 0x7F800000#32) (pairAt x w p q) o := fun o ho hs => kChunkMin_apply x w o ho hs p q
  unfold accMin
  simp only [minimumf_apply, broadcast_apply]
  rw [e 0 (by omega), e 32 (by omega), e 64 (by omega), e 96 (by omega), e 128 (by omega), e 160 (by omega), e 192 (by omega),
    e 224 (by omega), e 256 (by omega), e 288 (by omega), e 320 (by omega), e 352 (by omega), e 384 (by omega), e 416 (by omega),
    e 448 (by omega), e 480 (by omega)]
  exact TropicalChunks.min_chunks _ _

/-- Rows 0 … 127 of the transposed second argument, as the body slices them. -/
def wtTop (x1 : Vec Ideal S256x512 .f32) : FVec Ideal S128x512 .f32 := Gen.k0_pay4 x1
/-- Rows 128 … 255 of the transposed second argument, as the body slices them. -/
def wtBot (x1 : Vec Ideal S256x512 .f32) : FVec Ideal S128x512 .f32 := Gen.k0_pay5 x1

/-- Row q of the top slice is row q of the transposed argument. -/
theorem wtTop_rowAt (x1 : Vec Ideal S256x512 .f32) (q : Fin 128) (n : ℕ) :
    rowAt (wtTop x1) q n = rowAt (R := 256) x1 ⟨q.val, by have := q.isLt; omega⟩ n := by
  unfold rowAt
  split
  · next h =>
    unfold wtTop Gen.k0_pay4 Gen.k0_pay3
    rw [shapeCast_self]
    refine extractStridedSlice_apply ![0, 0] x1 Facts₀.slices_S256x512_o0_0_S128x512 (ix2 q ⟨n, h⟩)
      (ix2 (⟨q.val, by have := q.isLt; omega⟩ : Fin 256) ⟨n, h⟩) fun a => ?_
    match a with
    | ⟨0, _⟩ => show q.val = 0 + q.val; omega
    | ⟨1, _⟩ => show n = 0 + n; omega
  · rfl

/-- Row q of the bottom slice is row 128 + q of the transposed argument. -/
theorem wtBot_rowAt (x1 : Vec Ideal S256x512 .f32) (q : Fin 128) (n : ℕ) :
    rowAt (wtBot x1) q n = rowAt (R := 256) x1 ⟨128 + q.val, by have := q.isLt; omega⟩ n := by
  unfold rowAt
  split
  · next h =>
    unfold wtBot Gen.k0_pay5 Gen.k0_pay3
    rw [shapeCast_self]
    refine extractStridedSlice_apply ![128, 0] x1 Facts₀.slices_S256x512_o128_0_S128x512 (ix2 q ⟨n, h⟩)
      (ix2 (⟨128 + q.val, by have := q.isLt; omega⟩ : Fin 256) ⟨n, h⟩) fun a => ?_
    match a with
    | ⟨0, _⟩ => rfl
    | ⟨1, _⟩ => show n = 0 + n; omega
  · rfl

/-- The value the body stores in columns 0 … 127 is the running maxima over the block and the top rows. -/
theorem payMax_eq (x0 : Vec Ideal S128x512 .f32) (x1 : Vec Ideal S256x512 .f32) :
    Gen.k0_pay1 (Gen.k0_pay4 x1) (Gen.k0_pay35 x0 (Gen.k0_pay4 x1) (Gen.k0_pay30 x0 (Gen.k0_pay4 x1) (Gen.k0_pay23 x0 (Gen.k0_pay4 x1)
      (Gen.k0_pay18 x0 (Gen.k0_pay4 x1) (Gen.k0_pay8 x0 x1) (Gen.k0_pay12 x0 x1))))) (Gen.k0_pay37 x0)
      = accMax x0 (wtTop x1) := rfl

/-- The value the body stores in columns 128 … 255 is the running minima over the block and the bottom rows. -/
theorem payMin_eq (x0 : Vec Ideal S128x512 .f32) (x1 : Vec Ideal S256x512 .f32) :
    Gen.k0_pay2 (Gen.k0_pay5 x1) (Gen.k0_pay36 x0 (Gen.k0_pay5 x1) (Gen.k0_pay28 x0 (Gen.k0_pay5 x1) (Gen.k0_pay21 x0 (Gen.k0_pay5 x1)
      (Gen.k0_pay15 x0 (Gen.k0_pay5 x1) (Gen.k0_pay9 x0 x1) (Gen.k0_pay10 x0) (Gen.k0_pay11 x1)) (Gen.k0_pay16 x0) (Gen.k0_pay17 (Gen.k0_pay5 x1)))
      (Gen.k0_pay24 (Gen.k0_pay5 x1)) (Gen.k0_pay25 x0)) (Gen.k0_pay31 x0 (Gen.k0_pay5 x1))) (Gen.k0_pay37 x0)
      = accMin x0 (wtBot x1) := rfl

end Cert.KernelIdeal.Tropical

end
-- ==== Proof.Spec.lean ====
/-
  The result both programs compute, entry by entry.

  For X of 2048 rows and 512 columns and W of 512 rows and 256 columns, entry (b, u) of the result is, for u < 128, the
  maximum over f of X[b, f] + W[f, u] started from -∞, and for u ≥ 128 the minimum over f of X[b, f] + W[f, u] started
  from +∞: a matrix product in which the sum of products is replaced by a maximum (minimum) of sums. The two infinities
  are kept as the words the programs write them with; the same words stand on both sides and are never evaluated.
-/
import Idealize.ShloMosaic.Lib.ValueIdx
import Idealize.ShloMosaic.PureOps.Ideal

noncomputable section

namespace Cert.Tropical

open Idealize.ShloMosaic Idealize.ShloMosaic.ValueIdx

/-- Entry (b, u) of the result. -/
def entry (X : (⟨2, ![2048, 512]⟩ : Shape).Idx → EReal) (W : (⟨2, ![512, 256]⟩ : Shape).Idx → EReal)
    (b : Fin 2048) (u : Fin 256) : EReal :=
  if u.val < 128 then
    (Finset.univ : Finset (Fin 512)).fold max (Ideal.ofBits .f32 0xFF800000#32) (fun f => X (ix2 b f) + W (ix2 f u))
  else
    (Finset.univ : Finset (Fin 512)).fold min (Ideal.ofBits .f32 0x7F800000#32) (fun f => X (ix2 b f) + W (ix2 f u))

/-- The result array. -/
def result (X : (⟨2, ![2048, 512]⟩ : Shape).Idx → EReal) (W : (⟨2, ![512, 256]⟩ : Shape).Idx → EReal) :
    (⟨2, ![2048, 256]⟩ : Shape).Idx → EReal :=
  fun i => entry X W ⟨(i 0).val, (i 0).isLt⟩ ⟨(i 1).val, (i 1).isLt⟩

theorem result_ix2 (X : (⟨2, ![2048, 512]⟩ : Shape).Idx → EReal) (W : (⟨2, ![512, 256]⟩ : Shape).Idx → EReal)
    (b : Fin 2048) (u : Fin 256) : result X W (ix2 b u) = entry X W b u := rfl

end Cert.Tropical

end
-- ==== Proof.BlockValue.lean ====
/-
  The kernel's result array.

  The grid has sixteen points; point t works on rows 128 t … 128 t + 127 of the first argument, on the whole of the
  transposed second argument (a host transpose before the call: entry (q, n) of it is entry (n, q) of the argument), and
  writes rows 128 t … 128 t + 127 of the result. Entry (p, q) of the block a point writes is the maximum (q < 128) or the
  minimum (q ≥ 128) over n of x[p, n] + wt[q, n] (the two stores of the body, each the running maxima or minima after
  the sixteen chunks), which is entry (128 t + p, q) of the specification. The sixteen row blocks cover the array, so
  after the run the array is the specification's result.
-/
import proofs.«178861_j70145405878420_2_alg».proof.Proof.Gen.KernelIdeal.Value
import proofs.«178861_j70145405878420_2_alg».proof.Proof.KernelBlock
import proofs.«178861_j70145405878420_2_alg».proof.Proof.Spec
import Idealize.ShloMosaic.Lib.Pipeline.Value
import Idealize.ShloMosaic.Lib.StableHlo.Run

noncomputable section

namespace Cert.KernelIdeal.Tropical

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The block a point writes, entry by entry -/

/-- Entry (p, q) of the output block, from the block x0 of the first argument and the transposed second argument x1:
    in both halves it is row q of x1 that is read. -/
def blockEntry (x0 : Vec Ideal S128x512 .f32) (x1 : Vec Ideal S256x512 .f32) (p : Fin 128) (q : Fin 256) : EReal :=
  if q.val < 128 then
    (Finset.univ : Finset (Fin 512)).fold max (Ideal.ofBits .f32 0xFF800000#32) (fun f => pairAt x0 x1 p q f.val)
  else
    (Finset.univ : Finset (Fin 512)).fold min (Ideal.ofBits .f32 0x7F800000#32) (fun f => pairAt x0 x1 p q f.val)

/-- The running maxima, stored in columns 0 … 127. -/
theorem blockEntry_top (x0 : Vec Ideal S128x512 .f32) (x1 : Vec Ideal S256x512 .f32) (a b p : Fin 128) (q : Fin 256)
    (hp : p.val = a.val) (hq : q.val = b.val) : accMax x0 (wtTop x1) (ix2 a b) = blockEntry x0 x1 p q := by
  obtain rfl : p = a := Fin.ext hp
  have hb : b.val < 128 := b.isLt
  have hb' : b.val < 256 := Nat.lt_trans b.isLt (by decide)
  obtain rfl : q = ⟨b.val, hb'⟩ := Fin.ext hq
  rw [accMax_apply]
  unfold blockEntry
  rw [if_pos hb]
  refine Finset.fold_congr fun f _ => ?_
  unfold pairAt
  rw [wtTop_rowAt]

/-- The running minima, stored in columns 128 … 255. -/
theorem blockEntry_bot (x0 : Vec Ideal S128x512 .f32) (x1 : Vec Ideal S256x512 .f32) (a b p : Fin 128) (q : Fin 256)
    (hp : p.val = a.val) (hq : q.val = 128 + b.val) : accMin x0 (wtBot x1) (ix2 a b) = blockEntry x0 x1 p q := by
  obtain rfl : p = a := Fin.ext hp
  have hb : b.val < 128 := b.isLt
  have hb' : 128 + b.val < 256 := Nat.add_lt_add_left b.isLt 128
  obtain rfl : q = ⟨128 + b.val, hb'⟩ := Fin.ext hq
  rw [accMin_apply]
  unfold blockEntry
  rw [if_neg (by show ¬ 128 + b.val < 128; omega)]
  refine Finset.fold_congr fun f _ => ?_
  unfold pairAt
  rw [wtBot_rowAt]

/-- What the body's two stores leave in the output block. -/
theorem out_apply (x0 : Vec Ideal S128x512 .f32) (x1 : Vec Ideal S256x512 .f32) (y : S128x256.Idx) :
    out0_2 x0 x1 y = blockEntry x0 x1 ⟨(y 0).val, (y 0).isLt⟩ ⟨(y 1).val, (y 1).isLt⟩ := by
  unfold out0_2
  simp only [View.ld_unit_zero (S := S128x512) hz, View.ld_unit_zero (S := S256x512) hz]
  rw [payMax_eq, payMin_eq]
  refine View.canon_apply_of_pieces (Val := Elt Ideal) (S := S128x256) (e := .f32)
    (fun y => blockEntry x0 x1 ⟨(y 0).val, (y 0).isLt⟩ ⟨(y 1).val, (y 1).isLt⟩) _ ?_ y (cover0_2 _ _ y)
  intro pc hpc x
  rcases List.mem_cons.mp hpc with rfl | hpc
  · obtain ⟨a, b, rfl⟩ : ∃ (a b : Fin 128), x = ix2 a b := ⟨x 0, x 1, eq_ix2 x⟩
    exact blockEntry_bot x0 x1 a b _ _ (by show 0 + 1 * a.val = a.val; omega) (by show 128 + 1 * b.val = 128 + b.val; omega)
  rcases List.mem_cons.mp hpc with rfl | hpc
  · obtain ⟨a, b, rfl⟩ : ∃ (a b : Fin 128), x = ix2 a b := ⟨x 0, x 1, eq_ix2 x⟩
    exact blockEntry_top x0 x1 a b _ _ (by show 0 + 1 * a.val = a.val; omega) (by show 0 + 1 * b.val = b.val; omega)
  nomatch hpc

/-! ## The input blocks as entries of the arguments -/

/-- The printed index maps, decided over the grid: the first argument's and the result's blocks move down the rows with the
    point, the transposed second argument is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The host transpose before the call: the second window's array is the transposed second argument. -/
theorem V_main_v0 (c : Dev nD) :
    (V m c main_v0 : S256x512.Idx → EReal)
      = transpose S256x512 [1, 0] (m ((c : Thread nD τ).loc main_arg1)) Facts₀.transposes_S512x256_S256x512_1_0 := by
  dsimp only [Gen.V, Gen.hostOps0]
  after_results

/-- Row p of point t's block of the first argument is row 128 t + p of the argument. -/
theorem xblk_apply (c : Dev nD) (t : Fin cfg0.N) (p : Fin 128) (n : ℕ) (hn : n < 512) (b : Fin 2048)
    (hb : b.val = 128 * t.val + p.val) :
    rowAt (iblk m c 0 t : Vec Ideal S128x512 .f32) p n
      = (m ((c : Thread nD τ).loc main_arg0) : S2048x512.Idx → EReal) (ix2 b ⟨n, hn⟩) := by
  obtain ⟨e0, e1, -, -, -, -⟩ := idx_facts t
  rw [rowAt_of_lt _ _ _ hn]
  unfold iblk
  rw [View.read_apply]
  show V m c main_arg0 _ = _
  rw [V_main_arg0]
  refine congrArg _ (funext fun a => Fin.ext ?_)
  match a with
  | ⟨0, _⟩ => show win0_0.index t (0 : Fin 2) * 128 + 1 * p.val = b.val; rw [e0, hb]; omega
  | ⟨1, _⟩ => show win0_0.index t (1 : Fin 2) * 512 + 1 * n = n; rw [e1]; omega

/-- Row q of the second window's block is column q of the second argument. -/
theorem wblk_apply (c : Dev nD) (t : Fin cfg0.N) (q : Fin 256) (n : ℕ) (hn : n < 512) :
    rowAt (R := 256) (iblk m c 1 t : Vec Ideal S256x512 .f32) q n
      = (m ((c : Thread nD τ).loc main_arg1) : S512x256.Idx → EReal) (ix2 ⟨n, hn⟩ q) := by
  obtain ⟨-, -, e0, e1, -, -⟩ := idx_facts t
  rw [rowAt_of_lt _ _ _ hn]
  unfold iblk
  rw [View.read_apply]
  show (V m c main_v0 : S256x512.Idx → EReal) _ = _
  rw [V_main_v0]
  refine transpose_apply [1, 0] _ Facts₀.transposes_S512x256_S256x512_1_0 _ (ix2 ⟨n, hn⟩ q) fun a => ?_
  match a with
  | ⟨0, _⟩ => show q.val = win0_1.index t (0 : Fin 2) * 256 + 1 * q.val; rw [e0]; omega
  | ⟨1, _⟩ => show n = win0_1.index t (1 : Fin 2) * 512 + 1 * n; rw [e1]; omega

/-- Entry (p, q) of the block point t writes is entry (128 t + p, q) of the specification. -/
theorem blockEntry_eq_entry (c : Dev nD) (t : Fin cfg0.N) (p : Fin 128) (q : Fin 256) (b : Fin 2048) (u : Fin 256)
    (hb : b.val = 128 * t.val + p.val) (hu : u.val = q.val) :
    blockEntry (iblk m c 0 t) (iblk m c 1 t) p q
      = Cert.Tropical.entry (m ((c : Thread nD τ).loc main_arg0)) (m ((c : Thread nD τ).loc main_arg1)) b u := by
  obtain rfl : u = q := Fin.ext hu
  unfold blockEntry Cert.Tropical.entry
  by_cases hq : u.val < 128
  · rw [if_pos hq, if_pos hq]
    refine Finset.fold_congr fun f _ => ?_
    unfold pairAt
    rw [xblk_apply m c t p f.val f.isLt b hb, wblk_apply m c t u f.val f.isLt]
  · rw [if_neg hq, if_neg hq]
    refine Finset.fold_congr fun f _ => ?_
    unfold pairAt
    rw [xblk_apply m c t p f.val f.isLt b hb, wblk_apply m c t u f.val f.isLt]

/-! ## From blocks to the array -/

/-- WHAT POINT t WRITES BACK is block t of the specification's result. -/
theorem flushed_eq (c : Dev nD) (t : Fin cfg0.N) :
    (dats m 0 c).flushed 2 t = ((cfg0.win 2).blk t).view.read (Elt Ideal)
      (Cert.Tropical.result (m ((c : Thread nD τ).loc main_arg0)) (m ((c : Thread nD τ).loc main_arg1))) := by
  obtain ⟨-, -, -, -, e0, e1⟩ := idx_facts t
  rw [Value.flushed2]
  funext j
  have hj0 : (j 0).val < 128 := (j 0).isLt
  have hj1 : (j 1).val < 256 := (j 1).isLt
  show out0_2 (iblk m c 0 t) (iblk m c 1 t) j = Cert.Tropical.result _ _ (((cfg0.win 2).blk t).view.emb j)
  refine (out_apply (iblk m c 0 t) (iblk m c 1 t) j).trans ?_
  refine blockEntry_eq_entry m c t _ _ _ _ ?_ ?_
  · show win0_2.index t (0 : Fin 2) * 128 + 1 * (j 0).val = 128 * t.val + (j 0).val
    rw [e0]; omega
  · show win0_2.index t (1 : Fin 2) * 256 + 1 * (j 1).val = (j 1).val
    rw [e1]; omega

/-- An index of the array is in point t's block iff each coordinate is in the block's range on its axis. -/
theorem mem_blk (t : Fin cfg0.N) (i : S2048x256.Idx) :
    i ∈ ((cfg0.win 2).blk t).view.set ↔ ∀ a : Fin 2, win0_2.index t a * S128x256.size a ≤ (i a).val
      ∧ (i a).val < win0_2.index t a * S128x256.size a + S128x256.size a := by
  show i ∈ ((View.whole main_v1).slice (win0_2.rect t)).set ↔ _
  rw [View.set_slice_whole, Rect.mem_set_unit]
  exact Iff.rfl

/-- Row r of the array is in the block of point r / 128. -/
theorem cover (i : S2048x256.Idx) :
    ∃ t : Fin cfg0.N, (cfg0.win 2).flush t = true ∧ i ∈ ((cfg0.win 2).blk t).view.set := by
  have h0 : (i 0).val < 2048 := (i 0).isLt
  have h1 : (i 1).val < 256 := (i 1).isLt
  have hN : cfg0.N = 16 := N_0
  have ht : (i 0).val / 128 < cfg0.N := by rw [hN]; omega
  obtain ⟨-, -, -, -, e0, e1⟩ := idx_facts ⟨(i 0).val / 128, ht⟩
  refine ⟨⟨(i 0).val / 128, ht⟩, flush0_2 _, ?_⟩
  rw [mem_blk]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win0_2.index ⟨(i 0).val / 128, ht⟩ (1 : Fin 2) * 256 ≤ (i 1).val
      ∧ (i 1).val < win0_2.index ⟨(i 0).val / 128, ht⟩ (1 : Fin 2) * 256 + 256
    rw [e1]
    omega

/-- THE ARRAY after the run is the specification's result of the argument arrays. -/
theorem final (c : Dev nD) : (dats m 0 c).arrAt 2 cfg0.N
    = Cert.Tropical.result (m ((c : Thread nD τ).loc main_arg0)) (m ((c : Thread nD τ).loc main_arg1)) :=
  (dats m 0 c).arrAt_eq_of_cover 2 _ (fun t _ => flushed_eq m c t) cover

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v1)
        = Cert.Tropical.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tropical

end
-- ==== Proof.RefRead.lean ====
/-
  The reference computes the result.

  The reference spreads X along a new last axis and the two column halves of W along a new first axis, adds them into two
  [2048, 512, 128] arrays whose entry (b, f, u) is X[b, f] + W[f, u] (for the second half X[b, f] + W[f, 128 + u]), takes
  the maximum of the first and the minimum of the second over the middle axis, started from -∞ and +∞, and joins the two
  [2048, 128] results along the columns. A reduction over one axis with a commutative and associative operation is the fold
  over that axis's coordinates, so entry (b, u) is the fold the specification names.
-/
import proofs.«178861_j70145405878420_2_alg».proof.Proof.Gen.ReferenceIdeal.Read
import proofs.«178861_j70145405878420_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-- The reduction over the middle axis, with at least one axis left. -/
theorem reduces_mid : S2048x512x128.Reduces [1] S2048x128 := by decide

/-- The index over (b, u) with f put back on the reduced axis is (b, f, u). -/
theorem lift_eq (b : Fin 2048) (u : Fin 128) (f : Fin 512) : reduces_mid.lift (ix2 b u) f = ix3 b f u := by
  funext a
  apply Fin.ext
  match a with
  | ⟨0, _⟩ => rfl
  | ⟨1, _⟩ => rfl
  | ⟨2, _⟩ => rfl

/-- Entry (b, f, u) of the first array of sums. -/
theorem sums_left (x0 : S2048x512.Idx → EReal) (x1 : S512x256.Idx → EReal) (b : Fin 2048) (f : Fin 512) (u : Fin 128) :
    val_main_v5 (F := Ideal) x0 x1 (ix3 b f u) = x0 (ix2 b f) + x1 (ix2 f ⟨u.val, by have := u.isLt; omega⟩) := by
  rw [val_main_v5_apply, val_main_v3_apply, val_main_v0_apply, val_main_v4_apply, val_main_v2_apply, val_main_v1_apply]
  show x0 _ + x1 _ = _
  congr 2
  · funext a; apply Fin.ext
    match a with
    | ⟨0, _⟩ => rfl
    | ⟨1, _⟩ => rfl
  · funext a; apply Fin.ext
    match a with
    | ⟨0, _⟩ => rfl
    | ⟨1, _⟩ => rfl

/-- Entry (b, f, u) of the second array of sums. -/
theorem sums_right (x0 : S2048x512.Idx → EReal) (x1 : S512x256.Idx → EReal) (b : Fin 2048) (f : Fin 512) (u : Fin 128) :
    val_main_v11 (F := Ideal) x0 x1 (ix3 b f u) = x0 (ix2 b f) + x1 (ix2 f ⟨128 + u.val, by have := u.isLt; omega⟩) := by
  rw [val_main_v11_apply, val_main_v9_apply, val_main_v6_apply, val_main_v10_apply, val_main_v8_apply, val_main_v7_apply]
  show x0 _ + x1 _ = _
  congr 2
  · funext a; apply Fin.ext
    match a with
    | ⟨0, _⟩ => rfl
    | ⟨1, _⟩ => rfl
  · funext a; apply Fin.ext
    match a with
    | ⟨0, _⟩ => rfl
    | ⟨1, _⟩ => rfl

/-- Entry (b, u) of the maxima over the middle axis. -/
theorem maxima_apply (x0 : S2048x512.Idx → EReal) (x1 : S512x256.Idx → EReal) (b : Fin 2048) (u : Fin 128) :
    val_main_v12 (F := Ideal) x0 x1 (ix2 b u)
      = (Finset.univ : Finset (Fin 512)).fold max (Ideal.ofBits .f32 0xFF800000#32)
          (fun f => x0 (ix2 b f) + x1 (ix2 f ⟨u.val, by have := u.isLt; omega⟩)) := by
  have key : ∀ f : Fin 512, val_main_v5 (F := Ideal) x0 x1 (reduces_mid.lift (ix2 b u) f)
      = x0 (ix2 b f) + x1 (ix2 f ⟨u.val, by have := u.isLt; omega⟩) := fun f => by rw [lift_eq, sums_left]
  unfold val_main_v12
  refine (Host.reduce_eq_fold_single (FloatOps.maximumf (F := Ideal) (φ := .f32)) (val_main_v5 (F := Ideal) x0 x1) (val_main_cst (F := Ideal))
    Facts₀.reducesTo_S2048x512x128_S2048x128_d1 reduces_mid Facts₀.h_S_ (ix2 b u)).trans ?_
  exact Finset.fold_congr fun f _ => key f

/-- Entry (b, u) of the minima over the middle axis. -/
theorem minima_apply (x0 : S2048x512.Idx → EReal) (x1 : S512x256.Idx → EReal) (b : Fin 2048) (u : Fin 128) :
    val_main_v13 (F := Ideal) x0 x1 (ix2 b u)
      = (Finset.univ : Finset (Fin 512)).fold min (Ideal.ofBits .f32 0x7F800000#32)
          (fun f => x0 (ix2 b f) + x1 (ix2 f ⟨128 + u.val, by have := u.isLt; omega⟩)) := by
  have key : ∀ f : Fin 512, val_main_v11 (F := Ideal) x0 x1 (reduces_mid.lift (ix2 b u) f)
      = x0 (ix2 b f) + x1 (ix2 f ⟨128 + u.val, by have := u.isLt; omega⟩) := fun f => by rw [lift_eq, sums_right]
  unfold val_main_v13
  refine (Host.reduce_eq_fold_single (FloatOps.minimumf (F := Ideal) (φ := .f32)) (val_main_v11 (F := Ideal) x0 x1) (val_main_cst_0 (F := Ideal))
    Facts₀.reducesTo_S2048x512x128_S2048x128_d1 reduces_mid Facts₀.h_S_ (ix2 b u)).trans ?_
  exact Finset.fold_congr fun f _ => key f

/-- THE REFERENCE'S VALUE: the joined array is the result. -/
theorem ref_eq (x0 : S2048x512.Idx → EReal) (x1 : S512x256.Idx → EReal) :
    val_main_v14 (F := Ideal) x0 x1 = Cert.Tropical.result x0 x1 := by
  funext i
  obtain ⟨b, u, rfl⟩ : ∃ (b : Fin 2048) (u : Fin 256), i = ix2 b u := ⟨i 0, i 1, eq_ix2 i⟩
  rw [Cert.Tropical.result_ix2]
  unfold val_main_v14 Cert.Tropical.entry
  by_cases hu : u.val < 128
  · rw [if_pos hu]
    refine (concatenate_pair_apply_left (1 : Fin 2) (val_main_v12 (F := Ideal) x0 x1) (val_main_v13 (F := Ideal) x0 x1)
      Facts₀.concatenates_S2048x128_S2048x128_S2048x256_d1 (ix2 b u) rfl (ix2 b (⟨u.val, hu⟩ : Fin 128)) fun a => ?_).trans ?_
    · match a with
      | ⟨0, _⟩ => rfl
      | ⟨1, _⟩ => rfl
    · exact maxima_apply x0 x1 b ⟨u.val, hu⟩
  · rw [if_neg hu]
    have hu' : u.val - 128 < 128 := by have := u.isLt; omega
    refine (concatenate_pair_apply_right (1 : Fin 2) (val_main_v12 (F := Ideal) x0 x1) (val_main_v13 (F := Ideal) x0 x1)
      Facts₀.concatenates_S2048x128_S2048x128_S2048x256_d1 (ix2 b u) rfl rfl (ix2 b (⟨u.val - 128, hu'⟩ : Fin 128)) (fun a ha => ?_) ?_).trans ?_
    · match a with
      | ⟨0, _⟩ => rfl
      | ⟨1, _⟩ => exact absurd rfl ha
    · show u.val - 128 + 128 = u.val
      omega
    · refine (minima_apply x0 x1 b ⟨u.val - 128, hu'⟩).trans ?_
      have e : (⟨128 + (u.val - 128), by omega⟩ : Fin 256) = u := Fin.ext (by show 128 + (u.val - 128) = u.val; omega)
      rw [e]

end Cert.ReferenceIdeal.RefValue

end
-- ==== Proof.lean ====
/-
  The kernel and its reference compute one array: a matrix product over the extended reals in which, for the first 128
  output columns, the sum of products is replaced by a maximum of sums started from -∞, and for the last 128 by a minimum of
  sums started from +∞.

  The reference forms all the sums X[b, f] + W[f, u] and reduces over f at once (Proof/RefRead.lean). The kernel works on
  row blocks of X against the transposed W, cuts the 512 positions into sixteen chunks of thirty-two, reduces each chunk
  and folds the chunk results into a running maximum (minimum) (Proof/ChunkRead.lean, Proof/KernelBlock.lean). The two agree
  because a maximum taken chunk by chunk is the maximum of the whole (Proof/LibTropicalChunks.lean): only the order of
  the extended reals is used, no arithmetic law, so no finiteness of the inputs is needed. The blocks the grid points
  write tile the result array (Proof/BlockValue.lean).

  The three frames are the generated ones (the reference's is its generated run with the result dropped); the ideal pass
  rewrote nothing, so there is nothing to preserve.
-/
import proofs.«178861_j70145405878420_2_alg».proof.Defs
import proofs.«178861_j70145405878420_2_alg».proof.Proof.Gen.Kernel
import proofs.«178861_j70145405878420_2_alg».proof.Proof.Gen.Kernel.Frame
import proofs.«178861_j70145405878420_2_alg».proof.Proof.Gen.KernelIdeal
import proofs.«178861_j70145405878420_2_alg».proof.Proof.Gen.KernelIdeal.Frame
import proofs.«178861_j70145405878420_2_alg».proof.Proof.Gen.KernelIdeal.Value
import proofs.«178861_j70145405878420_2_alg».proof.Proof.Gen.ReferenceIdeal
import proofs.«178861_j70145405878420_2_alg».proof.Proof.Gen.ReferenceIdeal.Run
import proofs.«178861_j70145405878420_2_alg».proof.Proof.Gen.ReferenceIdeal.Read
import proofs.«178861_j70145405878420_2_alg».proof.Proof.Gen.Pre_finite_inputs
import proofs.«178861_j70145405878420_2_alg».proof.Proof.BlockValue
import proofs.«178861_j70145405878420_2_alg».proof.Proof.RefRead

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the specification's result of the (agreeing) argument arrays. -/
theorem algebraic : Cert.algebraic_KernelIdeal_ReferenceIdeal := by
  intro m ρ m' ρ' _ hagree
  refine ⟨_, Cert.KernelIdeal.Tropical.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
